-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .i32⟩
  | .hbm, ⟨1, _⟩ => ⟨S4096x4096, .i32⟩
  | .hbm, ⟨2, _⟩ => ⟨S4096x4096, .f32⟩
  | .local _ .vmem, ⟨0, _⟩ => ⟨S2048x256, .i32⟩
  | .local _ .vmem, ⟨1, _⟩ => ⟨S2048x256, .i32⟩
  | .local _ .vmem, ⟨2, _⟩ => ⟨S256x1024, .i32⟩
  | .local _ .vmem, ⟨3, _⟩ => ⟨S256x1024, .i32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .i32 = 32 ∨ (Rect.block (s := S4096x4096) S2048x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .i32 = 32 ∨ (Rect.block (s := S4096x4096) S256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x4096.size a
  hwx0_2 : ∀ i : grid0.Coords, EltTy.bits .f32 = 32 ∨ (Rect.block (s := S4096x4096) S2048x1024.size (cc0_transform_2 i) (hinb0_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .i32⟩
  | .hbm, ⟨1, _⟩ => ⟨S4096x4096, .i32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | _, _ => ⟨S4096x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibBlockSum.lean ====
import Mathlib.Algebra.BigOperators.Fin
import Mathlib.Algebra.BigOperators.Group.Finset.Basic
import Mathlib.Logic.Equiv.Fin.Basic

/-!
# Sums taken block by block, and running totals

A sum over T·R entries is the sum over T blocks of the sums over the R entries of each block, entry r of block t being
entry R·t + r. A running total that starts at the first block's sum and adds one block's sum per step is, after
step n, the sum of the first n + 1 blocks' sums.
-/

open Finset

namespace Cert.LibBlockSum

variable {M : Type*} [AddCommMonoid M]

/-- A sum over T·R entries, taken block by block. -/
theorem sum_by_blocks (T R : ℕ) (f : Fin (T * R) → M) :
    ∑ i, f i = ∑ t : Fin T, ∑ r : Fin R, f (finProdFinEquiv (t, r)) := by
  rw [← Fintype.sum_prod_type']
  exact (Equiv.sum_comp finProdFinEquiv f).symm

/-- Entry r of block t is entry R·t + r. -/
theorem block_entry_val {T R : ℕ} (t : Fin T) (r : Fin R) : (finProdFinEquiv (t, r)).val = r.val + R * t.val := rfl

/-- The same with the entries numbered 0 … N − 1 for N = T·R: entry r of block t is entry R·t + r. -/
theorem sum_by_blocks_of_eq (T R N : ℕ) (hN : T * R = N) (f : Fin N → M) :
    ∑ i, f i = ∑ t : Fin T, ∑ r : Fin R, f ⟨R * t.val + r.val, by
      have h := (finProdFinEquiv (t, r)).isLt
      rw [show (finProdFinEquiv (t, r)).val = r.val + R * t.val from rfl] at h
      omega⟩ := by
  subst hN
  rw [sum_by_blocks T R f]
  refine Finset.sum_congr rfl fun t _ => Finset.sum_congr rfl fun r _ => congrArg f (Fin.ext ?_)
  exact Nat.add_comm _ _

/-- A running total after step n is the sum of the first n + 1 terms. -/
theorem running_total (s g : ℕ → M) (h0 : s 0 = g 0) (hs : ∀ n, s (n + 1) = s n + g (n + 1)) (n : ℕ) :
    s n = ∑ k ∈ range (n + 1), g k := by
  induction n with
  | zero => rw [h0, Finset.sum_range_one]
  | succ n ih => rw [hs, ih, Finset.sum_range_succ _ (n + 1)]

/-- The same, for a recurrence that is only known below a bound N. -/
theorem running_total_below (N : ℕ) (s g : ℕ → M) (h0 : s 0 = g 0) (hs : ∀ n, n + 1 < N → s (n + 1) = s n + g (n + 1))
    (n : ℕ) (hn : n < N) : s n = ∑ k ∈ range (n + 1), g k := by
  induction n with
  | zero => rw [h0, Finset.sum_range_one]
  | succ n ih => rw [hs n hn, ih (by omega), Finset.sum_range_succ _ (n + 1)]

end Cert.LibBlockSum
-- ==== Proof.Spec.lean ====
/-
  The result both programs compute, as one function of the two integer argument arrays.

  Each 32-bit integer entry is converted to a real, shifted by its zero point and scaled (x ↦ (x − 65)·s₁ for the left
  array, y ↦ (y − 160)·s₂ for the right one, s₁ and s₂ the two scale constants as the binary values both programs
  spell). The result at (p, q) is the sum over k = 0 … 4095 of left(p, k) · right(k, q) on the extended reals.

  The kernel reaches that sum sixteen contraction blocks of 256 at a time, starting from zero; the last lemma here is
  the regrouping: zero plus the sum of sixteen block sums is the one sum over 4096 terms. It uses only that addition on
  the extended reals is commutative and associative, so no finiteness of anything is needed.
-/
import Idealize.ShloMosaic.PureOps.Ideal
import Idealize.ShloMosaic.PureOps.Ideal.Laws
import Idealize.ShloMosaic.Lib.ValueIdx
import proofs.«141281_j54752243089863_1_alg».proof.Proof.LibBlockSum

noncomputable section

open scoped BigOperators

namespace Cert.Spec

open Idealize.ShloMosaic Idealize.ShloMosaic.ValueIdx

/-- The shape of both arguments and of the result. -/
abbrev SQ : Shape := ⟨2, ![4096, 4096]⟩

/-- One dequantized entry of the left array: (x − 65) · s₁. -/
def qx (x : BitVec 32) : EReal :=
  (FloatOps.sitofp (F := Ideal) .f32 x - Ideal.ofBits .f32 0x42820000#32) * Ideal.ofBits .f32 0x3E4BC6A8#32

/-- One dequantized entry of the right array: (y − 160) · s₂. -/
def qy (y : BitVec 32) : EReal :=
  (FloatOps.sitofp (F := Ideal) .f32 y - Ideal.ofBits .f32 0x43200000#32) * Ideal.ofBits .f32 0x3CB020C5#32

/-- The product of the two dequantized arrays, entry by entry. -/
def G (X Y : SQ.Idx → BitVec 32) : SQ.Idx → EReal := fun i =>
  ∑ k : Fin 4096, qx (X (ix2 (i 0) k)) * qy (Y (ix2 k (i 1)))

/-- Column 256·b + r of the contraction axis, for block b of sixteen and offset r inside it. -/
abbrev kcol (b : Fin 16) (r : Fin 256) : Fin 4096 := ⟨256 * b.val + r.val, by have := b.isLt; have := r.isLt; omega⟩

/-- The contribution of contraction block b to entry (p, q). -/
def blockTerm (X Y : SQ.Idx → BitVec 32) (p q : Fin 4096) (b : Fin 16) : EReal :=
  ∑ r : Fin 256, qx (X (ix2 p (kcol b r))) * qy (Y (ix2 (kcol b r) q))

/-- Sixteen block sums are the whole sum. -/
theorem G_eq_blocks (X Y : SQ.Idx → BitVec 32) (p q : Fin 4096) :
    G X Y (ix2 p q) = ∑ b : Fin 16, blockTerm X Y p q b := by
  unfold G blockTerm
  exact Cert.LibBlockSum.sum_by_blocks_of_eq 16 256 4096 rfl
    (fun k : Fin 4096 => qx (X (ix2 p k)) * qy (Y (ix2 k q)))

end Cert.Spec

end
-- ==== Proof.RefValue.lean ====
/-
  The reference computes the specification.

  The reference converts, shifts and scales each argument array entry by entry and then takes one matrix product over
  the whole contraction axis. Read at an index (p, q), the product is the sum over k of the left stage at (p, k) times
  the right stage at (k, q); the entrywise stages at those indices are the dequantized entries of the specification.
-/
import proofs.«141281_j54752243089863_1_alg».proof.Proof.Gen.ReferenceIdeal.Read
import proofs.«141281_j54752243089863_1_alg».proof.Proof.Spec

noncomputable section

open scoped BigOperators

namespace Cert.ReferenceIdeal.RefValue

open Cert.ReferenceIdeal Cert.ReferenceIdeal.Read Idealize.ShloMosaic Idealize.ShloMosaic.ValueIdx

/-- The left operand of the product is read at row p of the output index and column k. -/
theorem lidx_eq (i : S4096x4096.Idx) (k : Fin 4096) : lidx_main_v10 i k = ix2 (i 0) k :=
  funext fun a => Fin.ext (by match a with | ⟨0, _⟩ => rfl | ⟨1, _⟩ => rfl)

/-- The right operand is read at row k and the output index's column. -/
theorem ridx_eq (i : S4096x4096.Idx) (k : Fin 4096) : ridx_main_v10 i k = ix2 k (i 1) :=
  funext fun a => Fin.ext (by match a with | ⟨0, _⟩ => rfl | ⟨1, _⟩ => rfl)

/-- The left stage at an index is the dequantized entry. -/
theorem left_apply (X : S4096x4096.Idx → BitVec 32) (j : S4096x4096.Idx) :
    val_main_v4 (F := Ideal) X j = Cert.Spec.qx (X j) := by
  rw [val_main_v4_apply, val_main_v2_apply, val_main_v0_apply, val_main_v1_apply, val_main_cst_apply,
    val_main_v3_apply, val_main_cst_0_apply]
  rfl

/-- The right stage at an index is the dequantized entry. -/
theorem right_apply (Y : S4096x4096.Idx → BitVec 32) (j : S4096x4096.Idx) :
    val_main_v9 (F := Ideal) Y j = Cert.Spec.qy (Y j) := by
  rw [val_main_v9_apply, val_main_v7_apply, val_main_v5_apply, val_main_v6_apply, val_main_cst_1_apply,
    val_main_v8_apply, val_main_cst_2_apply]
  rfl

/-- The reference's result is the specification of its two arguments. -/
theorem result_eq (X Y : S4096x4096.Idx → BitVec 32) : val_main_v10 (F := Ideal) X Y = Cert.Spec.G X Y := by
  funext i
  rw [val_main_v10_apply]
  unfold Cert.Spec.G
  refine Finset.sum_congr rfl fun k _ => ?_
  rw [left_apply, right_apply, lidx_eq, ridx_eq]
  rfl

end Cert.ReferenceIdeal.RefValue

end
-- ==== Proof.Pieces.lean ====
/-
  What one run of the kernel body leaves, in each of its three cases.

  The body keeps an accumulator block. At the first step along the contraction axis it stores the zero block, reads it
  back and stores "accumulator + product of the two input blocks"; at every later step it stores "what the step before
  left + product"; at the last step it also copies the accumulator, read back, into the output block. Every store and
  load goes through the whole block, so what a case leaves is the payload of its last store with the loads replaced by
  the contents they read: in all cases the one function `k0_pay2` (accumulator + product) of the two input blocks and
  of the accumulator the body found — the zero block `k0_pay1` at the first step.
-/
import proofs.«141281_j54752243089863_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of every access of the body: the block's origin. -/
theorem hz : (![0, 0] : Fin 2 → Nat) = fun _ => 0 := funext fun a => by fin_cases a <;> rfl

/-- First step of a run along the contraction axis: the accumulator ends at zero + product. -/
theorem scratch_A (c : Dev nD) (i : grid0.Coords) (arg3 : Memref sig .tc .vmem S2048x256 .i32) (harg3 : arg3.IsWhole) (arg4 : Memref sig .tc .vmem S256x1024 .i32) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x256 .i32) (x1 : Vec F S256x1024 .i32) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x256) hz, View.ld_unit_zero (S := S256x1024) hz]

/-- A middle step: the accumulator ends at what it held + product. -/
theorem scratch_B (c : Dev nD) (i : grid0.Coords) (arg3 : Memref sig .tc .vmem S2048x256 .i32) (harg3 : arg3.IsWhole) (arg4 : Memref sig .tc .vmem S256x1024 .i32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x256 .i32) (x1 : Vec F S256x1024 .i32) (xs0 : Vec F S2048x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread,
    View.ld_unit_zero (S := S2048x256) hz, View.ld_unit_zero (S := S256x1024) hz, View.ld_unit_zero (S := S2048x1024) hz]

/-- The last step: the accumulator ends at what it held + product, -/
theorem scratch_C (c : Dev nD) (i : grid0.Coords) (arg3 : Memref sig .tc .vmem S2048x256 .i32) (harg3 : arg3.IsWhole) (arg4 : Memref sig .tc .vmem S256x1024 .i32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x256 .i32) (x1 : Vec F S256x1024 .i32) (xs0 : Vec F S2048x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S2048x1024) hz]
  simp only [View.readAt_eq_ld, harg3.read_unread, harg4.read_unread, harg6.read_unread,
    View.ld_unit_zero (S := S2048x256) hz, View.ld_unit_zero (S := S256x1024) hz, View.ld_unit_zero (S := S2048x1024) hz]

/-- and the output block is the accumulator read back: the same value. -/
theorem out_C (c : Dev nD) (i : grid0.Coords) (arg3 : Memref sig .tc .vmem S2048x256 .i32) (harg3 : arg3.IsWhole) (arg4 : Memref sig .tc .vmem S256x1024 .i32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x256 .i32) (x1 : Vec F S256x1024 .i32) (xs0 : Vec F S2048x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S2048x1024) hz, View.readCov_unit_zero (S := S2048x1024) _ hz]
  simp only [View.readAt_eq_ld, harg3.read_unread, harg4.read_unread, harg6.read_unread,
    View.ld_unit_zero (S := S2048x256) hz, View.ld_unit_zero (S := S256x1024) hz, View.ld_unit_zero (S := S2048x1024) hz]

end Cert.KernelIdeal.Pieces

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.Payload.lean ====
/-
  The body's arithmetic, read at an index over the extended reals.

  The one payload of the body takes an input block x0 (2048 × 256 integers), an input block x1 (256 × 1024 integers)
  and an accumulator block: it dequantizes both input blocks entry by entry, narrows them to the matrix unit's input
  format (which changes nothing over the extended reals), multiplies them into a zero block and adds the accumulator.
  At (p, q) that is the accumulator's entry plus the sum over the 256 columns k of the block of
  (x0(p, k) − 65)·s₁ · (x1(k, q) − 160)·s₂. The zero block's entries are 0.
-/
import proofs.«141281_j54752243089863_1_alg».proof.Proof.Gen.KernelIdeal.Skeleton
import proofs.«141281_j54752243089863_1_alg».proof.Proof.LibMatmul
import proofs.«141281_j54752243089863_1_alg».proof.Proof.Spec
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! The product's dimension numbers: the left block's columns are contracted against the right block's rows. -/

theorem lhs_row (j : S2048x1024.Idx) (q : dot_S2048x256_S256x1024_S2048x1024_1_0_0_1_n_n.contr.Idx) : (dot_S2048x256_S256x1024_S2048x1024_1_0_0_1_n_n.lhsIdx j q 0).val = (j 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl

theorem lhs_col (j : S2048x1024.Idx) (q : dot_S2048x256_S256x1024_S2048x1024_1_0_0_1_n_n.contr.Idx) : (dot_S2048x256_S256x1024_S2048x1024_1_0_0_1_n_n.lhsIdx j q 1).val = (q ⟨0, by decide⟩).val :=
  dot_S2048x256_S256x1024_S2048x1024_1_0_0_1_n_n.lhsIdx_val_of_single rfl j q

theorem rhs_row (j : S2048x1024.Idx) (q : dot_S2048x256_S256x1024_S2048x1024_1_0_0_1_n_n.contr.Idx) : (dot_S2048x256_S256x1024_S2048x1024_1_0_0_1_n_n.rhsIdx j q 0).val = (q ⟨0, by decide⟩).val :=
  dot_S2048x256_S256x1024_S2048x1024_1_0_0_1_n_n.rhsIdx_val_of_single rfl j q

theorem rhs_col (j : S2048x1024.Idx) (q : dot_S2048x256_S256x1024_S2048x1024_1_0_0_1_n_n.contr.Idx) : (dot_S2048x256_S256x1024_S2048x1024_1_0_0_1_n_n.rhsIdx j q 1).val = (j 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The zero block is zero everywhere. -/
theorem zero_apply (j : S2048x1024.Idx) : k0_pay1 (F := Ideal) j = 0 := by
  unfold k0_pay1
  rw [shapeCast_self]
  exact Ideal.ofBits_zero_f32

/-- Accumulator + product, at (p, q): the accumulator's entry plus the block's 256 products of dequantized entries. -/
theorem step_apply (x0 : Vec Ideal S2048x256 .i32) (x1 : Vec Ideal S256x1024 .i32) (acc : Vec Ideal S2048x1024 .f32)
    (p : Fin 2048) (q : Fin 1024) :
    k0_pay2 (F := Ideal) x0 x1 acc (ix2 p q)
      = acc (ix2 p q) + ∑ k : Fin 256, Cert.Spec.qx (x0 (ix2 p k)) * Cert.Spec.qy (x1 (ix2 k q)) := by
  unfold k0_pay2
  rw [shapeCast_self]
  refine congrArg (acc (ix2 p q) + ·) ?_
  refine (Cert.Lib.Matmul.matmul_zero_ix2 dot_S2048x256_S256x1024_S2048x1024_1_0_0_1_n_n none rfl rfl lhs_row lhs_col rhs_row rhs_col _ _ p q).trans ?_
  rfl

end Cert.KernelIdeal.Payload

end
-- ==== Proof.Fold.lean ====
/-
  The accumulator along a run of sixteen points.

  The sixteen points 16·g, …, 16·g + 15 share one output block and walk the contraction axis. The accumulator is reset
  to zero + product at the first of them and gains one product of input blocks at each later one, so after the point
  16·g + s it holds, entry by entry, zero plus the sum of the products of the points 16·g, …, 16·g + s. At the last
  point of the run the output block receives the accumulator's value.
-/
import proofs.«141281_j54752243089863_1_alg».proof.Proof.Gen.KernelIdeal.Value
import proofs.«141281_j54752243089863_1_alg».proof.Proof.Pieces
import proofs.«141281_j54752243089863_1_alg».proof.Proof.Payload

noncomputable section

open scoped BigOperators

open Idealize.ShloMosaic Idealize.ShloMosaic.TcCoe Idealize.SL.Sem

namespace Cert.KernelIdeal.Fold

open Cert.KernelIdeal Cert.KernelIdeal.Gen Idealize.ShloMosaic.ValueIdx

variable (m : (ℓ : Loc nD τ sig) → Buf (Elt Ideal) ℓ)

/-- The product of point n's two input blocks at an entry of the output block: the sum over the block's 256 columns of
    the dequantized left entry times the dequantized right entry (zero for a number past the grid, never used). -/
def term (c : Dev nD) (n : ℕ) (j : S2048x1024.Idx) : EReal :=
  if h : n < cfg0.N then
    ∑ k : Fin 256, Cert.Spec.qx ((iblk m c 0 ⟨n, h⟩ : Vec Ideal S2048x256 .i32) (ix2 (j 0) k))
      * Cert.Spec.qy ((iblk m c 1 ⟨n, h⟩ : Vec Ideal S256x1024 .i32) (ix2 k (j 1)))
  else 0

/-- The body's arithmetic at point n over an accumulator: the accumulator's entry plus the point's product. -/
theorem step_term (c : Dev nD) (n : ℕ) (h : n < cfg0.N) (acc : Vec Ideal S2048x1024 .f32) (j : S2048x1024.Idx) :
    k0_pay2 (F := Ideal) (iblk m c 0 ⟨n, h⟩) (iblk m c 1 ⟨n, h⟩) acc j = acc j + term m c n j := by
  obtain ⟨p, q, rfl⟩ : ∃ (p : Fin 2048) (q : Fin 1024), j = ix2 p q := ⟨j 0, j 1, eq_ix2 j⟩
  refine (Cert.KernelIdeal.Payload.step_apply (iblk m c 0 ⟨n, h⟩) (iblk m c 1 ⟨n, h⟩) acc p q).trans ?_
  unfold term
  rw [dif_pos h]

/-- After point t the accumulator holds zero plus the products of the points of t's run up to t. -/
theorem scratch_after (c : Dev nD) (t : Fin cfg0.N) (j : S2048x1024.Idx) :
    (outsAt0 m c t.val t.isLt).2 j
      = 0 + ∑ s ∈ Finset.range (t.val % 16 + 1), term m c (16 * (t.val / 16) + s) j := by
  have hN : cfg0.N = 128 := N_0
  rw [Cert.KernelIdeal.Value.soutsAt0_0_eq m c t]
  refine Pipeline.accAt_add_apply (ι := S2048x1024.Idx) (β := EReal)
    (fun n h => Cert.KernelIdeal.Value.scAt0_0 m c n h (VS0_0.read (Elt Ideal) VS0_0.junk))
    (Cert.KernelIdeal.Value.scAt0_0 m c) (fun _ => 0) (term m c) (16 * (t.val / 16)) 15 ?_ ?_
    (t.val % 16) (by omega) _ j
  · intro h i
    have h0 : 16 * (t.val / 16) % 16 = 0 := by omega
    have h1 : ¬ 16 * (t.val / 16) % 16 = 15 := by omega
    show Cert.KernelIdeal.Value.scAt0_0 m c _ h _ i = _
    unfold Cert.KernelIdeal.Value.scAt0_0
    rw [dif_pos h0, dif_neg h1, Cert.KernelIdeal.Pieces.scratch_A]
    refine (step_term m c _ h _ i).trans ?_
    rw [Cert.KernelIdeal.Payload.zero_apply]
  · intro n h acc i hb he
    have h0 : ¬ n % 16 = 0 := by omega
    unfold Cert.KernelIdeal.Value.scAt0_0
    rw [dif_neg h0]
    by_cases h1 : n % 16 = 15
    · rw [dif_pos h1, Cert.KernelIdeal.Pieces.scratch_C]
      exact step_term m c n h acc i
    · rw [dif_neg h1, Cert.KernelIdeal.Pieces.scratch_B]
      exact step_term m c n h acc i

/-- At the last point of a run the output block receives what the accumulator ends at. -/
theorem out_eq_scratch (c : Dev nD) (t : Fin cfg0.N) (h15 : t.val % 16 = 15) :
    (outsAt0 m c t.val t.isLt).1 = (outsAt0 m c t.val t.isLt).2 := by
  rw [outsAt0_C m c t (by omega) h15]
  dsimp only
  rw [Cert.KernelIdeal.Pieces.out_C, Cert.KernelIdeal.Pieces.scratch_C]

/-- So the block written back at the last point of a run is zero plus the sixteen products of the run. -/
theorem out_last (c : Dev nD) (t : Fin cfg0.N) (h15 : t.val % 16 = 15) (j : S2048x1024.Idx) :
    (outsAt0 m c t.val t.isLt).1 j = 0 + ∑ s ∈ Finset.range 16, term m c (16 * (t.val / 16) + s) j := by
  rw [out_eq_scratch m c t h15, scratch_after m c t j, h15]

end Cert.KernelIdeal.Fold

end
-- ==== Proof.Blocks.lean ====
/-
  Where the windows' blocks lie in the arrays.

  The grid has 2 × 4 × 16 points, numbered t = 64·i + 16·j + k for row block i, column block j and contraction block k.
  At point t the left window's block is rows 2048·i …, columns 256·k … of the left array; the right window's block is
  rows 256·k …, columns 1024·j … of the right array; the output window's block is rows 2048·i …, columns 1024·j … of
  the result. In terms of t: i = t / 64, j = (t / 16) % 4, k = t % 16.
-/
import proofs.«141281_j54752243089863_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The three index maps at point t, decided over the 128 points. -/
theorem index_facts : ∀ t : Fin cfg0.N,
    win0_0.index t (0 : Fin 2) = t.val / 64 ∧ win0_0.index t (1 : Fin 2) = t.val % 16
    ∧ win0_1.index t (0 : Fin 2) = t.val % 16 ∧ win0_1.index t (1 : Fin 2) = t.val / 16 % 4
    ∧ win0_2.index t (0 : Fin 2) = t.val / 64 ∧ win0_2.index t (1 : Fin 2) = t.val / 16 % 4 :=
  (by decide +kernel : ∀ t : Fin grid0.N, _)

/-- The grid's size, as a bound on a point's number. -/
theorem lt_128 (t : Fin cfg0.N) : t.val < 128 := lt_of_lt_of_eq t.isLt (show cfg0.N = 128 from N_0)

/-- Row 2048·(t / 64) + p of an array of 4096 rows. -/
abbrev rowOf (n : ℕ) (hn : n < 128) (p : Fin 2048) : Fin 4096 := ⟨2048 * (n / 64) + p.val, by have := p.isLt; omega⟩
/-- Column 1024·((t / 16) % 4) + q of an array of 4096 columns. -/
abbrev colOf (n : ℕ) (q : Fin 1024) : Fin 4096 := ⟨1024 * (n / 16 % 4) + q.val, by have := q.isLt; omega⟩
/-- Position 256·(t % 16) + k on the contraction axis. -/
abbrev midOf (n : ℕ) (k : Fin 256) : Fin 4096 := ⟨256 * (n % 16) + k.val, by have := k.isLt; omega⟩

/-- The left window's block at point t, entry (p, k): the left array at (2048·(t/64) + p, 256·(t%16) + k). -/
theorem left_apply (c : Dev nD) (t : Fin cfg0.N) (p : Fin 2048) (k : Fin 256) :
    (iblk m c 0 t : Vec F S2048x256 .i32) (ix2 p k)
      = m ((c : Thread nD τ).loc main_arg0) (ix2 (rowOf t.val (lt_128 t) p) (midOf t.val k)) := by
  obtain ⟨e0, e1, -, -, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 2048 + 1 * p.val = 2048 * (t.val / 64) + p.val; rw [e0]; omega
  | ⟨1, _⟩ => show win0_0.index t 1 * 256 + 1 * k.val = 256 * (t.val % 16) + k.val; rw [e1]; omega

/-- The right window's block at point t, entry (k, q): the right array at (256·(t%16) + k, 1024·((t/16)%4) + q). -/
theorem right_apply (c : Dev nD) (t : Fin cfg0.N) (k : Fin 256) (q : Fin 1024) :
    (iblk m c 1 t : Vec F S256x1024 .i32) (ix2 k q)
      = m ((c : Thread nD τ).loc main_arg1) (ix2 (midOf t.val k) (colOf t.val q)) := by
  obtain ⟨-, -, e2, e3, -, -⟩ := index_facts t
  unfold iblk
  rw [View.read_apply]
  show V m c main_arg1 _ = m (c.tc.loc main_arg1) _
  unfold V
  congr 1
  funext a
  apply Fin.ext
  match a with
  | ⟨0, _⟩ => show win0_1.index t 0 * 256 + 1 * k.val = 256 * (t.val % 16) + k.val; rw [e2]; omega
  | ⟨1, _⟩ => show win0_1.index t 1 * 1024 + 1 * q.val = 1024 * (t.val / 16 % 4) + q.val; rw [e3]; omega

/-- The output window's block at point t, entry (p, q), is entry (2048·(t/64) + p, 1024·((t/16)%4) + q) of the result. -/
theorem out_emb (t : Fin cfg0.N) (p : Fin 2048) (q : Fin 1024) :
    ((cfg0.win 2).blk t).view.emb (ix2 p q) = ix2 (rowOf t.val (lt_128 t) p) (colOf t.val q) := by
  obtain ⟨-, -, -, -, e4, e5⟩ := index_facts t
  funext a
  apply Fin.ext
  match a with
  | ⟨0, _⟩ => show win0_2.index t 0 * 2048 + 1 * p.val = 2048 * (t.val / 64) + p.val; rw [e4]; omega
  | ⟨1, _⟩ => show win0_2.index t 1 * 1024 + 1 * q.val = 1024 * (t.val / 16 % 4) + q.val; rw [e5]; omega

end Cert.KernelIdeal.Blocks

end
-- ==== Proof.KernelValue.lean ====
/-
  The kernel's result array is the specification of its two arguments.

  The block written back at the last point of a run holds, at (p, q), zero plus the sixteen products of the run's
  points. The s-th of them is the contribution of contraction block s to entry (2048·i + p, 1024·j + q) of the
  specification, where (i, j) is the output block of the run: the input blocks are the matching rows and columns of the
  arguments. Sixteen block contributions are the whole sum over the contraction axis, and zero plus it is it. The 8 runs'
  output blocks tile the 4096 × 4096 result, so the whole array is the specification.
-/
import proofs.«141281_j54752243089863_1_alg».proof.Proof.Fold
import proofs.«141281_j54752243089863_1_alg».proof.Proof.Blocks

noncomputable section

open scoped BigOperators

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx
open Cert.KernelIdeal.Blocks (rowOf colOf midOf lt_128)

variable (m : (ℓ : Loc nD τ sig) → Buf (Elt Ideal) ℓ) (ρ : Dev nD → PrngReg)

/-- What the result array ends holding. -/
abbrev result (c : Dev nD) : Buf (Elt Ideal) ((c : Thread nD τ).loc main_v0) :=
  Cert.Spec.G (m ((c : Thread nD τ).loc main_arg0)) (m ((c : Thread nD τ).loc main_arg1))

/-- The product of point n's input blocks at (p, q) is the contribution of contraction block n % 16 to the entry of
    the specification that (p, q) is in point n's output block. -/
theorem term_eq (c : Dev nD) (n : ℕ) (hn : n < 128) (p : Fin 2048) (q : Fin 1024) :
    Cert.KernelIdeal.Fold.term m c n (ix2 p q)
      = Cert.Spec.blockTerm (m ((c : Thread nD τ).loc main_arg0)) (m ((c : Thread nD τ).loc main_arg1))
          (rowOf n hn p) (colOf n q) ⟨n % 16, Nat.mod_lt _ (by decide)⟩ := by
  have hN : n < cfg0.N := lt_of_lt_of_eq hn (show 128 = cfg0.N from N_0.symm)
  unfold Cert.KernelIdeal.Fold.term Cert.Spec.blockTerm
  rw [dif_pos hN]
  refine Finset.sum_congr rfl fun k _ => ?_
  rw [Cert.KernelIdeal.Blocks.left_apply m c ⟨n, hN⟩ p k, Cert.KernelIdeal.Blocks.right_apply m c ⟨n, hN⟩ k q]

/-- The block a run's last point writes back is the matching block of the specification. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  have ht := lt_128 t
  rw [Cert.KernelIdeal.Value.flushed2]
  funext j
  obtain ⟨p, q, rfl⟩ : ∃ (p : Fin 2048) (q : Fin 1024), j = ix2 p q := ⟨j 0, j 1, eq_ix2 j⟩
  show (outsAt0 m c t.val t.isLt).1 (ix2 p q) = result m c (((cfg0.win 2).blk t).view.emb (ix2 p q))
  rw [Cert.KernelIdeal.Fold.out_last m c t h15, Cert.KernelIdeal.Blocks.out_emb t p q]
  show _ = Cert.Spec.G _ _ (ix2 (rowOf t.val ht p) (colOf t.val q))
  rw [Cert.Spec.G_eq_blocks, zero_add, Finset.sum_range]
  refine Finset.sum_congr rfl fun b _ => ?_
  have hb := b.isLt
  rw [term_eq m c (16 * (t.val / 16) + b.val) (by omega) p q]
  have e0 : rowOf (16 * (t.val / 16) + b.val) (by omega) p = rowOf t.val ht p := Fin.ext (by
    show 2048 * ((16 * (t.val / 16) + b.val) / 64) + p.val = 2048 * (t.val / 64) + p.val; omega)
  have e1 : colOf (16 * (t.val / 16) + b.val) q = colOf t.val q := Fin.ext (by
    show 1024 * ((16 * (t.val / 16) + b.val) / 16 % 4) + q.val = 1024 * (t.val / 16 % 4) + q.val; omega)
  have e2 : (⟨(16 * (t.val / 16) + b.val) % 16, Nat.mod_lt _ (by decide)⟩ : Fin 16) = b := Fin.ext (by
    show (16 * (t.val / 16) + b.val) % 16 = b.val; omega)
  rw [e0, e1, e2]

/-- Every entry of the result lies in the block some run's last point writes back. -/
theorem cover (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 128 := N_0
  let t : Fin cfg0.N := ⟨64 * ((i 0).val / 2048) + 16 * ((i 1).val / 1024) + 15, by omega⟩
  have tv : t.val = 64 * ((i 0).val / 2048) + 16 * ((i 1).val / 1024) + 15 := rfl
  obtain ⟨-, -, -, -, e4, e5⟩ := Cert.KernelIdeal.Blocks.index_facts t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 2048 ≤ (i 0).val ∧ (i 0).val < win0_2.index t 0 * 2048 + 2048
    rw [e4]; omega
  | ⟨1, _⟩ =>
    show win0_2.index t 1 * 1024 ≤ (i 1).val ∧ (i 1).val < win0_2.index t 1 * 1024 + 1024
    rw [e5]; omega

/-- The result array after the run. -/
theorem final (c : Dev nD) : (dats m 0 c).arrAt 2 cfg0.N = result m c :=
  (dats m 0 c).arrAt_eq_of_cover 2 (result m c) (flushed_eq m c) cover

/-- Every execution of the kernel ends with the result array at the specification, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.KernelValue

end
-- ==== Proof.lean ====
/-
  A dequantizing matrix product, blocked over its contraction axis, against the plain product.

  Both programs take two 4096 × 4096 arrays of 32-bit integers, turn every entry into a real by subtracting a zero
  point (65 on the left, 160 on the right) and multiplying by a scale (the binary values both spell for 0.199 and
  0.0215), and multiply the two matrices. The reference does it in one product over the whole contraction axis. The
  kernel computes each 2048 × 1024 block of the result in sixteen steps over blocks of 256 of the contraction axis,
  narrowing the dequantized blocks to the matrix unit's input format and accumulating the sixteen block products in a
  scratch block that starts at zero and is copied out at the last step.

  Over the extended reals the narrowing changes nothing and every operation is exact, so the kernel's entry (p, q) is
  0 + Σ_b Σ_r left(p, 256·b + r) · right(256·b + r, q), the reference's Σ_k left(p, k) · right(k, q): the same sum,
  regrouped (addition on the extended reals is commutative and associative; no input needs to be finite).

  Modules: Spec (the result as one function of the arguments, and the regrouping), RefValue (the reference computes it),
  Pieces (what one run of the body leaves in each case), Payload (the body's arithmetic at an index), Blocks (where the
  windows' blocks lie), Fold (the accumulator along a run of sixteen points), KernelValue (the kernel computes the
  specification). The three frames are the generated ones; the idealization rewrote nothing.
-/
import proofs.«141281_j54752243089863_1_alg».proof.Defs
import proofs.«141281_j54752243089863_1_alg».proof.Proof.Gen.Kernel
import proofs.«141281_j54752243089863_1_alg».proof.Proof.Gen.Kernel.Skeleton
import proofs.«141281_j54752243089863_1_alg».proof.Proof.Gen.Kernel.Launch
import proofs.«141281_j54752243089863_1_alg».proof.Proof.Gen.Kernel.Points
import proofs.«141281_j54752243089863_1_alg».proof.Proof.Gen.Kernel.Frame
import proofs.«141281_j54752243089863_1_alg».proof.Proof.Gen.KernelIdeal
import proofs.«141281_j54752243089863_1_alg».proof.Proof.Gen.KernelIdeal.Skeleton
import proofs.«141281_j54752243089863_1_alg».proof.Proof.Gen.KernelIdeal.Launch
import proofs.«141281_j54752243089863_1_alg».proof.Proof.Gen.KernelIdeal.Points
import proofs.«141281_j54752243089863_1_alg».proof.Proof.Gen.KernelIdeal.Frame
import proofs.«141281_j54752243089863_1_alg».proof.Proof.Gen.ReferenceIdeal
import proofs.«141281_j54752243089863_1_alg».proof.Proof.Gen.KernelIdeal.Value
import proofs.«141281_j54752243089863_1_alg».proof.Proof.Gen.ReferenceIdeal.Run
import proofs.«141281_j54752243089863_1_alg».proof.Proof.Gen.ReferenceIdeal.Read
import proofs.«141281_j54752243089863_1_alg».proof.Proof.RefValue
import proofs.«141281_j54752243089863_1_alg».proof.Proof.KernelValue
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are the same function of arguments that
    agree: the product of the two dequantized arrays. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq _ _).trans ?_
  rw [(hagree c).1, (hagree c).2]

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
